-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x128 : Shape := ⟨2, ![8192, 128]⟩
abbrev S256x128 : Shape := ⟨2, ![256, 128]⟩
abbrev S256x8192 : Shape := ⟨2, ![256, 8192]⟩
abbrev S256 : Shape := ⟨1, ![256]⟩
abbrev S256x1 : Shape := ⟨2, ![256, 1]⟩

abbrev nBuf : Space → Nat
  | .hbm => 13
  | .vmem => 4
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S8192x128, .f32⟩
  | .hbm, ⟨7, _⟩ => ⟨S8192x128, .bf16⟩
  | .hbm, ⟨8, _⟩ => ⟨S8192x128, .f32⟩
  | .hbm, ⟨9, _⟩ => ⟨S8192x128, .bf16⟩
  | .hbm, ⟨10, _⟩ => ⟨S8192x128, .f32⟩
  | .hbm, ⟨11, _⟩ => ⟨S8192x64, .f32⟩
  | .hbm, ⟨12, _⟩ => ⟨S8192x64, .f32⟩
  | .local _ .vmem, ⟨0, _⟩ => ⟨S8192x128, .bf16⟩
  | .local _ .vmem, ⟨1, _⟩ => ⟨S8192x128, .bf16⟩
  | .local _ .vmem, ⟨2, _⟩ => ⟨S256x128, .f32⟩
  | .local _ .vmem, ⟨3, _⟩ => ⟨S256x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v4 : Index := Scalar.indexCast v1
  let c0_1 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S8192x64_S8192x64_S8192x128_d1 : Shape.Concatenates [S8192x64, S8192x64] S8192x128 1
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  h_S256x128 : 0 < S256x128.numel
  shapeCasts_S256x128_S256x128 : S256x128.ShapeCasts S256x128
  reduces_S256x8192_S256 : S256x8192.Reduces [1] S256
  shapeCasts_S256_S256x1 : S256.ShapeCasts S256x1
  broadcasts_S256x1_S256x8192 : S256x1.Broadcasts S256x8192
  inb_S256x128_S256x128_0_0 : ∀ a, (![0, 0] : Fin 2 → Nat) a + S256x128.size a ≤ S256x128.size a
  slices_S8192x128_S8192x64_0_0 : S8192x128.Slices ![0, 0] S8192x64
  slices_S8192x128_S8192x64_0_64 : S8192x128.Slices ![0, 64] S8192x64
  dot_S256x128_S8192x128_S256x8192_1_1_0_0_n_n_wf : DotDims.WF S256x128 S8192x128 S256x8192 [1] [1] [0] [0] [] []
  dot_S256x8192_S8192x128_S256x128_1_0_0_1_n_n_wf : DotDims.WF S256x8192 S8192x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_v5) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S64x8192, .f32⟩
  | .hbm, ⟨7, _⟩ => ⟨S8192x8192, .f32⟩
  | .hbm, ⟨8, _⟩ => ⟨S64x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x64, .f32⟩
  | .hbm, ⟨26, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Attend.lean ====
/-
  Attention of one query row, on the extended reals.

  A row of scores `s : Fin n → EReal` is turned into weights the usual way: subtract the row's largest score (taken
  from −∞, so that the empty comparison costs nothing), exponentiate, and divide by the sum of the exponentials.
  `attend s v` is the weighted sum `∑ⱼ weight s j · v j` of a column of values. Both programs of this certificate
  compute, for every query row `r` and every output column, `attend` of the row's scores against all 8192 keys and of
  one column of values; they differ only in how the scores and the value column are spelt, so nothing about `exp`, the
  division or the sums is ever opened: equal score rows and equal value columns give equal results.

  Two small facts about the extended reals are all the algebra needed: −∞ is neutral for `max`, and a sum over 128
  columns is the sum over the first 64 plus the sum over the last 64 (addition on the extended reals is commutative and
  associative, infinities included).
-/
import Idealize.ShloMosaic.PureOps.Ideal
import Idealize.ShloMosaic.PureOps.Ideal.Laws

noncomputable section

open scoped BigOperators

namespace Cert.Attn

open Idealize.ShloMosaic

/-- The largest score of a row, starting the comparison from −∞. -/
def rowMax {n : Nat} (s : Fin n → EReal) : EReal :=
  (Finset.univ : Finset (Fin n)).fold max (Ideal.ofBits .f32 0xFF800000#32) s

/-- The exponential of a score's distance below the row's largest. -/
def unnorm {n : Nat} (s : Fin n → EReal) (j : Fin n) : EReal := Ideal.exp (s j - rowMax s)

/-- The softmax weight of key `j`: its exponential over the sum of the row's exponentials. -/
def weight {n : Nat} (s : Fin n → EReal) (j : Fin n) : EReal := Ideal.div (unnorm s j) (∑ j', unnorm s j')

/-- The weighted sum of a column of values under the row's softmax weights. -/
def attend {n : Nat} (s v : Fin n → EReal) : EReal := ∑ j, weight s j * v j

/-- −∞ is neutral for the maximum. -/
theorem max_negInf (y : EReal) : max (Ideal.ofBits .f32 0xFF800000#32) y = y := by
  simp [Ideal.ofBits, Ideal.ieee]

/-- A sum over 128 columns is the sum over columns 0–63 plus the sum over columns 64–127. -/
theorem sum_halves (f : Fin 128 → EReal) :
    ∑ c : Fin 128, f c
      = (∑ d : Fin 64, f ⟨d.val, by have := d.isLt; omega⟩) + ∑ d : Fin 64, f ⟨64 + d.val, by have := d.isLt; omega⟩ := by
  rw [← (finCongr (show 64 + 64 = 128 from rfl)).sum_comp f, Fin.sum_univ_add]
  rfl

end Cert.Attn

end
-- ==== Proof.BodyBlock.lean ====
/-
  What one grid point leaves in its output block, read on the extended reals.

  At grid point `i` the body loads the whole key table `x0` (8192 rows of 128 columns), the 256 query rows
  `256·i … 256·i + 255` of the SAME table, and the whole value table `x1`, and stores one 256 × 128 block:
    scores  s[p, j] = ∑_c q[p, c] · x0[j, c]              (the product into a zero accumulator)
    m[p]    = the largest of row p's scores, from −∞
    e[p, j] = exp (s[p, j] − m[p])
    w[p, j] = e[p, j] / ∑_j' e[p, j']
    out[p, k] = ∑_j w[p, j] · x1[j, k]                     (again into a zero accumulator)
  so entry (p, k) of the block is `Attn.attend` of row p's scores and column k of the values. Changes of float
  format are the identity on the extended reals and never appear.

  The body's one store covers the block, so what the run found in the staging buffer is that payload (`piece`); the
  payload is restated, by unfolding alone, as a composition of named stages (`pay_eq`), and each stage is read at an
  index by the library's law for its operation.
-/
import proofs.«118776_j81930796139010_2_alg».proof.Proof.Gen.KernelIdeal.Frame
import proofs.«118776_j81930796139010_2_alg».proof.Proof.Attend
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Block

open Cert.KernelIdeal Cert.KernelIdeal.Gen

/-! ## The found piece is the payload of the loads -/

section AnyInstance

variable {F : FTy → Type} [FloatOps F]

theorem hz : (![0, 0] : Fin 2 → Nat) = fun _ => 0 := funext fun a => by fin_cases a <;> rfl

/-- The query rows the body loads at grid point `i`: rows `256·i …` of the staged key table. -/
abbrev queryRows (i : grid0.Coords) (x0 : Vec F S8192x128 .bf16) : Vec F S256x128 .bf16 :=
  View.ld x0 (Rect.unit (s := S8192x128) (k0_off1 i) S256x128.size (k0_off1_inb i))

/-- The body's one store covers its output block, and its loads read the staged inputs back: what the run leaves in
    the output's staging buffer is the payload of the key table, the query rows and the value table. -/
theorem piece (c : Dev nD) (i : grid0.Coords) (a1 : Memref sig .tc .vmem S8192x128 .bf16) (h1 : a1.IsWhole)
    (a2 : Memref sig .tc .vmem S8192x128 .bf16) (h2 : a2.IsWhole) (a3 : Memref sig .tc .vmem S256x128 .f32) (h3 : a3.IsWhole)
    (x0 x1 : Vec F S8192x128 .bf16) :
    out0_A_2 c i a1 h1 a2 h2 a3 h3 x0 x1 = k0_pay1 x0 (queryRows i x0) x1 := by
  unfold out0_A_2
  rw [View.read_writes_eq_canon _ _ _ (cover0_A_2 c i a1 h1 a2 h2 a3 h3 x0 x1)]
  unfold kernelRun0_A
  dsimp only
  rw [View.canon_unit_zero hz]
  simp only [View.readAt_eq_ld, h1.read_unread, h2.read_unread, View.ld_unit_zero (S := S8192x128) hz]

/-- Query row `p` at grid point `i` is row `256·i + p` of the key table. -/
theorem queryRows_apply (i : grid0.Coords) (x0 : Vec F S8192x128 .bf16) (y : S256x128.Idx) (k : S8192x128.Idx)
    (hk0 : (k 0).val = 256 * (i 0).val + (y 0).val) (hk1 : (k 1).val = (y 1).val) :
    queryRows i x0 y = x0 k := by
  show x0 ((Rect.unit (s := S8192x128) (k0_off1 i) S256x128.size (k0_off1_inb i)).emb y) = x0 k
  refine congrArg x0 (funext fun a => Fin.ext ?_)
  have e := k0_off1_eq i
  match a with
  | ⟨0, _⟩ =>
    show (k0_off1 i) 0 + 1 * (y 0).val = (k 0).val
    rw [e, hk0]; show 256 * (i 0).val + 1 * (y 0).val = _; omega
  | ⟨1, _⟩ =>
    show (k0_off1 i) 1 + 1 * (y 1).val = (k 1).val
    rw [e, hk1]; show 0 + 1 * (y 1).val = _; omega

/-! ## The payload as named stages -/

/-- Scores of the 256 query rows against all 8192 keys. -/
def scores (q : Vec F S256x128 .bf16) (x0 : Vec F S8192x128 .bf16) : FVec F S256x8192 .f32 :=
  matmul dot_S256x128_S8192x128_S256x8192_1_1_0_0_n_n none (shapeCast S256x128 q shapeCasts_S256x128_S256x128)
    (shapeCast S8192x128 x0 shapeCasts_S8192x128_S8192x128) (constant S256x8192 .f32 0x00000000#32)

/-- A column of per-row numbers repeated along each row. -/
def alongRows (x : FVec F S256 .f32) : FVec F S256x8192 .f32 :=
  broadcastTo S256x8192 (shapeCast S256x1 x shapeCasts_S256_S256x1) broadcasts_S256x1_S256x8192

/-- Each row's largest score, from −∞. -/
def rowMaxima (s : FVec F S256x8192 .f32) : FVec F S256 .f32 :=
  multiReduction .maximumf [1] S256 s 0xFF800000#32 reduces_S256x8192_S256 (.inl rfl) rfl

/-- The exponentials of the scores' distances below their row's largest. -/
def expo (s : FVec F S256x8192 .f32) : FVec F S256x8192 .f32 := exp (subf s (alongRows (rowMaxima s)))

/-- Each row's sum. -/
def rowSums (e : FVec F S256x8192 .f32) : FVec F S256 .f32 :=
  multiReduction .add [1] S256 e 0x00000000#32 reduces_S256x8192_S256 (.inl rfl) rfl

/-- The softmax weights. -/
def weights (s : FVec F S256x8192 .f32) : FVec F S256x8192 .bf16 :=
  truncf .bf16 (divf (expo s) (alongRows (rowSums (expo s)))) bitsLt_bf16_f32

/-- The weighted sums of the value table's columns. -/
def mix (w : FVec F S256x8192 .bf16) (x1 : Vec F S8192x128 .bf16) : FVec F S256x128 .f32 :=
  matmul dot_S256x8192_S8192x128_S256x128_1_0_0_1_n_n none w (shapeCast S8192x128 x1 shapeCasts_S8192x128_S8192x128) (constant S256x128 .f32 0x00000000#32)

/-- The body's payload is these stages composed. -/
theorem pay_eq (x0 : Vec F S8192x128 .bf16) (q : Vec F S256x128 .bf16) (x1 : Vec F S8192x128 .bf16) :
    k0_pay1 x0 q x1 = mix (weights (scores q x0)) x1 := rfl

/-- A per-row number repeated along its row reads, anywhere in row `p`, that number. -/
theorem alongRows_apply (x : FVec F S256 .f32) (p : Fin 256) (j : Fin 8192) : alongRows x (ix2 p j) = x (ix1 p) := by
  unfold alongRows
  refine (broadcastTo_apply _ broadcasts_S256x1_S256x8192 (ix2 p j) (ix2 p (0 : Fin 1)) (fun a => ?_)).trans ?_
  · match a with
    | ⟨0, _⟩ => show p.val = if (256 : Nat) = 1 then 0 else p.val; rw [if_neg (by decide)]
    | ⟨1, _⟩ => show 0 = if (1 : Nat) = 1 then 0 else j.val; rw [if_pos rfl]
  · refine shapeCast_apply x shapeCasts_S256_S256x1 (ix2 p (0 : Fin 1)) (ix1 p) ?_
    rw [Shape.rowMajor_val_one, Shape.rowMajor_val_two]
    show p.val = p.val * 1 + 0
    omega

end AnyInstance

/-! ## The stages read at an index, on the extended reals -/

theorem dA_lhs0 (i : S256x8192.Idx) (k : dot_S256x128_S8192x128_S256x8192_1_1_0_0_n_n.contr.Idx) : (dot_S256x128_S8192x128_S256x8192_1_1_0_0_n_n.lhsIdx i k 0).val = (i 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem dA_lhs1 (i : S256x8192.Idx) (k : dot_S256x128_S8192x128_S256x8192_1_1_0_0_n_n.contr.Idx) : (dot_S256x128_S8192x128_S256x8192_1_1_0_0_n_n.lhsIdx i k 1).val = (k ⟨0, by decide⟩).val :=
  dot_S256x128_S8192x128_S256x8192_1_1_0_0_n_n.lhsIdx_val_of_single rfl i k
theorem dA_rhs0 (i : S256x8192.Idx) (k : dot_S256x128_S8192x128_S256x8192_1_1_0_0_n_n.contr.Idx) : (dot_S256x128_S8192x128_S256x8192_1_1_0_0_n_n.rhsIdx i k 0).val = (i 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem dA_rhs1 (i : S256x8192.Idx) (k : dot_S256x128_S8192x128_S256x8192_1_1_0_0_n_n.contr.Idx) : (dot_S256x128_S8192x128_S256x8192_1_1_0_0_n_n.rhsIdx i k 1).val = (k ⟨0, by decide⟩).val :=
  dot_S256x128_S8192x128_S256x8192_1_1_0_0_n_n.rhsIdx_val_of_single rfl i k

/-- The score of query row `p` against key `j`: the sum over the 128 columns of the products. -/
theorem scores_apply (q : Vec Ideal S256x128 .bf16) (x0 : Vec Ideal S8192x128 .bf16) (p : Fin 256) (j : Fin 8192) :
    scores (F := Ideal) q x0 (ix2 p j) = ∑ c : Fin 128, q (ix2 p c) * x0 (ix2 j c) := by
  unfold scores
  simp only [matmul, shapeCast_self]
  rw [Ideal.matmul_constant_zero_apply, ← Equiv.sum_comp (contrEquiv1 dot_S256x128_S8192x128_S256x8192_1_1_0_0_n_n 128 rfl rfl).symm]
  refine Finset.sum_congr rfl fun k _ => ?_
  have hk := contrEquiv1_symm_val dot_S256x128_S8192x128_S256x8192_1_1_0_0_n_n 128 rfl rfl k
  have el : dot_S256x128_S8192x128_S256x8192_1_1_0_0_n_n.lhsIdx (ix2 p j) ((contrEquiv1 dot_S256x128_S8192x128_S256x8192_1_1_0_0_n_n 128 rfl rfl).symm k) = ix2 p k := funext fun a => Fin.ext (by
    match a with
    | ⟨0, _⟩ => exact dA_lhs0 _ _
    | ⟨1, _⟩ => exact (dA_lhs1 _ _).trans hk)
  have er : dot_S256x128_S8192x128_S256x8192_1_1_0_0_n_n.rhsIdx (ix2 p j) ((contrEquiv1 dot_S256x128_S8192x128_S256x8192_1_1_0_0_n_n 128 rfl rfl).symm k) = ix2 j k := funext fun a => Fin.ext (by
    match a with
    | ⟨0, _⟩ => exact dA_rhs0 _ _
    | ⟨1, _⟩ => exact (dA_rhs1 _ _).trans hk)
  rw [el, er]

theorem dB_lhs0 (i : S256x128.Idx) (k : dot_S256x8192_S8192x128_S256x128_1_0_0_1_n_n.contr.Idx) : (dot_S256x8192_S8192x128_S256x128_1_0_0_1_n_n.lhsIdx i k 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem dB_lhs1 (i : S256x128.Idx) (k : dot_S256x8192_S8192x128_S256x128_1_0_0_1_n_n.contr.Idx) : (dot_S256x8192_S8192x128_S256x128_1_0_0_1_n_n.lhsIdx i k 1).val = (k ⟨0, by decide⟩).val :=
  dot_S256x8192_S8192x128_S256x128_1_0_0_1_n_n.lhsIdx_val_of_single rfl i k
theorem dB_rhs0 (i : S256x128.Idx) (k : dot_S256x8192_S8192x128_S256x128_1_0_0_1_n_n.contr.Idx) : (dot_S256x8192_S8192x128_S256x128_1_0_0_1_n_n.rhsIdx i k 0).val = (k ⟨0, by decide⟩).val :=
  dot_S256x8192_S8192x128_S256x128_1_0_0_1_n_n.rhsIdx_val_of_single rfl i k
theorem dB_rhs1 (i : S256x128.Idx) (k : dot_S256x8192_S8192x128_S256x128_1_0_0_1_n_n.contr.Idx) : (dot_S256x8192_S8192x128_S256x128_1_0_0_1_n_n.rhsIdx i k 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- Entry (p, k) of the mix: the sum over the 8192 keys of weight times value. -/
theorem mix_apply (w : FVec Ideal S256x8192 .bf16) (x1 : Vec Ideal S8192x128 .bf16) (p : Fin 256) (k : Fin 128) :
    mix (F := Ideal) w x1 (ix2 p k) = ∑ j : Fin 8192, w (ix2 p j) * x1 (ix2 j k) := by
  unfold mix
  simp only [matmul, shapeCast_self]
  rw [Ideal.matmul_constant_zero_apply, ← Equiv.sum_comp (contrEquiv1 dot_S256x8192_S8192x128_S256x128_1_0_0_1_n_n 8192 rfl rfl).symm]
  refine Finset.sum_congr rfl fun j _ => ?_
  have hj := contrEquiv1_symm_val dot_S256x8192_S8192x128_S256x128_1_0_0_1_n_n 8192 rfl rfl j
  have el : dot_S256x8192_S8192x128_S256x128_1_0_0_1_n_n.lhsIdx (ix2 p k) ((contrEquiv1 dot_S256x8192_S8192x128_S256x128_1_0_0_1_n_n 8192 rfl rfl).symm j) = ix2 p j := funext fun a => Fin.ext (by
    match a with
    | ⟨0, _⟩ => exact dB_lhs0 _ _
    | ⟨1, _⟩ => exact (dB_lhs1 _ _).trans hj)
  have er : dot_S256x8192_S8192x128_S256x128_1_0_0_1_n_n.rhsIdx (ix2 p k) ((contrEquiv1 dot_S256x8192_S8192x128_S256x128_1_0_0_1_n_n 8192 rfl rfl).symm j) = ix2 j k := funext fun a => Fin.ext (by
    match a with
    | ⟨0, _⟩ => exact (dB_rhs0 _ _).trans hj
    | ⟨1, _⟩ => exact dB_rhs1 _ _)
  rw [el, er]

/-- Row `p`'s largest score is `Attn.rowMax` of the row. -/
theorem rowMaxima_apply (s : FVec Ideal S256x8192 .f32) (p : Fin 256) :
    rowMaxima (F := Ideal) s (ix1 p) = Attn.rowMax (fun j : Fin 8192 => s (ix2 p j)) := by
  unfold rowMaxima
  refine (Ideal.multiReduction_maximumf_single s 0xFF800000#32 reduces_S256x8192_S256 (.inl rfl) rfl (ix1 p)).trans ?_
  unfold Attn.rowMax
  refine congrArg (fun f => Finset.fold max (Ideal.ofBits .f32 0xFF800000#32) f (Finset.univ : Finset (Fin 8192))) ?_
  funext k
  exact congrArg s (funext fun a => Fin.ext (by match a with | ⟨0, _⟩ => rfl | ⟨1, _⟩ => rfl))

/-- Row `p`'s sum is the sum over the 8192 keys. -/
theorem rowSums_apply (e : FVec Ideal S256x8192 .f32) (p : Fin 256) :
    rowSums (F := Ideal) e (ix1 p) = ∑ j : Fin 8192, e (ix2 p j) := by
  unfold rowSums
  refine (Ideal.multiReduction_add_single e 0x00000000#32 reduces_S256x8192_S256 (.inl rfl) rfl (ix1 p)).trans ?_
  refine Finset.sum_congr rfl fun k _ => ?_
  exact congrArg e (funext fun a => Fin.ext (by match a with | ⟨0, _⟩ => rfl | ⟨1, _⟩ => rfl))

/-- The exponential stage at (p, j). -/
theorem expo_apply (s : FVec Ideal S256x8192 .f32) (p : Fin 256) (j : Fin 8192) :
    expo (F := Ideal) s (ix2 p j) = Attn.unnorm (fun j' : Fin 8192 => s (ix2 p j')) j := by
  unfold expo Attn.unnorm
  show Ideal.exp (s (ix2 p j) - alongRows (rowMaxima s) (ix2 p j)) = _
  rw [alongRows_apply, rowMaxima_apply]

/-- The weight stage at (p, j). -/
theorem weights_apply (s : FVec Ideal S256x8192 .f32) (p : Fin 256) (j : Fin 8192) :
    weights (F := Ideal) s (ix2 p j) = Attn.weight (fun j' : Fin 8192 => s (ix2 p j')) j := by
  unfold weights Attn.weight
  show Ideal.div (expo s (ix2 p j)) (alongRows (rowSums (expo s)) (ix2 p j)) = _
  rw [alongRows_apply, rowSums_apply, expo_apply]
  refine congrArg (Ideal.div _) (Finset.sum_congr rfl fun j' _ => expo_apply s p j')

/-- ENTRY (p, k) OF THE BLOCK: attention of query row `p`'s scores over column `k` of the values. -/
theorem pay_apply (x0 : Vec Ideal S8192x128 .bf16) (q : Vec Ideal S256x128 .bf16) (x1 : Vec Ideal S8192x128 .bf16)
    (p : Fin 256) (k : Fin 128) :
    k0_pay1 (F := Ideal) x0 q x1 (ix2 p k)
      = Attn.attend (fun j : Fin 8192 => ∑ c : Fin 128, q (ix2 p c) * x0 (ix2 j c)) (fun j => x1 (ix2 j k)) := by
  rw [pay_eq, mix_apply]
  unfold Attn.attend
  refine Finset.sum_congr rfl fun j _ => ?_
  rw [weights_apply]
  refine congrArg (fun s => Attn.weight s j * x1 (ix2 j k)) (funext fun j' => scores_apply q x0 p j')

end Cert.KernelIdeal.Block

end
-- ==== Proof.KernelArray.lean ====
/-
  The kernel program's two results, as functions of the two argument arrays.

  Before the grid runs, two tables are built from `mag` and `phase` (8192 × 64 each): the KEY table, whose row `r`
  is `mag[r, ·] · cos phase[r, ·]` followed by `mag[r, ·] · sin phase[r, ·]` (128 columns), and the VALUE table, whose
  row `r` is `mag[r, ·]` followed by `phase[r, ·]`. Grid point `t` (of 32) reads both tables whole, takes rows
  `256·t … 256·t + 255` of the key table as its queries, and writes rows `256·t …` of an 8192 × 128 output; the blocks
  tile the output, so it ends as ONE function of the two tables: entry (r, k) is the attention (`Attn.attend`) of the
  scores `∑_c key[r, c] · key[j, c]` over column `k` of the value table. The two results are columns 0–63 and
  64–127 of that output.

  The steps: each input block is the whole table (the block index never moves); what point `t` writes back is block
  `t` of that function (`flushed_eq`, at a symbolic point); the point covering row `r` is `r / 256` (`final`); the
  two column slices after the grid read the finished array (`tail_mag`, `tail_phase`); the tables are what the
  operations before the grid compute (`keys_eq`, `values_eq`).
-/
import proofs.«118776_j81930796139010_2_alg».proof.Proof.BodyBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Value

open Cert.KernelIdeal Cert.KernelIdeal.Gen

/-- Entry (r, k) of the grid's output, from the key table and the value table. -/
def fusedAt (ab mv : Vec Ideal S8192x128 .bf16) (r : Fin 8192) (k : Fin 128) : EReal :=
  Attn.attend (fun j : Fin 8192 => ∑ c : Fin 128, ab (ix2 r c) * ab (ix2 j c)) (fun j => mv (ix2 j k))

/-- The grid's whole output array. -/
def fused (ab mv : Vec Ideal S8192x128 .bf16) : S8192x128.Idx → EReal :=
  fun i => fusedAt ab mv ⟨(i 0).val, idx2_lt0 i⟩ ⟨(i 1).val, idx2_lt1 i⟩

variable (m : (ℓ : Loc nD τ sig) → Buf (Elt Ideal) ℓ) (ρ : Dev nD → PrngReg)

/-- The block indices, decided once over the 32 points: both tables' blocks stay at (0, 0); the output's block is
    (t, 0); the grid coordinate is the point's number. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (grid0.coords t 0).val = t.val :=
  (by decide +kernel : ∀ t : Fin grid0.N, _)

/-- The key table's block at any point is the whole table. -/
theorem keys_block (c : Dev nD) (t : Fin cfg0.N) : (iblk m c 0 t : Vec Ideal S8192x128 .bf16) = V m c main_v5 := by
  obtain ⟨e0, e1, -⟩ := idx_facts t
  funext y
  show V m c main_v5 (((cfg0.win 0).blk t).view.emb y) = V m c main_v5 y
  have h : ((cfg0.win 0).blk t).view.emb y = y := by
    funext a; apply Fin.ext
    match a with
    | ⟨0, _⟩ => show win0_0.index t (0 : Fin 2) * 8192 + 1 * (y 0).val = (y 0).val; rw [e0]; omega
    | ⟨1, _⟩ => show win0_0.index t (1 : Fin 2) * 128 + 1 * (y 1).val = (y 1).val; rw [e1]; omega
  rw [h]

/-- The value table's block at any point is the whole table. -/
theorem values_block (c : Dev nD) (t : Fin cfg0.N) : (iblk m c 1 t : Vec Ideal S8192x128 .bf16) = V m c main_v7 := by
  obtain ⟨-, -, e2, e3, -⟩ := idx_facts t
  funext y
  show V m c main_v7 (((cfg0.win 1).blk t).view.emb y) = V m c main_v7 y
  have h : ((cfg0.win 1).blk t).view.emb y = y := by
    funext a; apply Fin.ext
    match a with
    | ⟨0, _⟩ => show win0_1.index t (0 : Fin 2) * 8192 + 1 * (y 0).val = (y 0).val; rw [e2]; omega
    | ⟨1, _⟩ => show win0_1.index t (1 : Fin 2) * 128 + 1 * (y 1).val = (y 1).val; rw [e3]; omega
  rw [h]

/-- Entry `y` of the block a point computes is the output function at the array index `z` it lands on: row
    `256·i + y₀`, column `y₁`. -/
theorem block_entry (x0 x1 : Vec Ideal S8192x128 .bf16) (i : grid0.Coords) (y : S256x128.Idx) (z : S8192x128.Idx)
    (h0 : (z 0).val = 256 * (i 0).val + (y 0).val) (h1 : (z 1).val = (y 1).val) :
    k0_pay1 (F := Ideal) x0 (Block.queryRows i x0) x1 y = fused x0 x1 z := by
  obtain ⟨p, k, rfl⟩ : ∃ (p : Fin 256) (k : Fin 128), y = ix2 p k := ⟨y 0, y 1, eq_ix2 y⟩
  rw [Block.pay_apply]
  unfold fused fusedAt
  have hk : (⟨(z 1).val, idx2_lt1 z⟩ : Fin 128) = k := Fin.ext h1
  rw [hk]
  refine congrArg (fun s => Attn.attend s (fun j => x1 (ix2 j k))) (funext fun j => Finset.sum_congr rfl fun c _ => ?_)
  refine congrArg (· * x0 (ix2 j c)) ?_
  exact Block.queryRows_apply i x0 (ix2 p c) (ix2 ⟨(z 0).val, idx2_lt0 z⟩ c) h0 rfl

/-- WHAT POINT `t` WRITES BACK is block `t` of the output function of the two tables. -/
theorem flushed_eq (c : Dev nD) (t : Fin cfg0.N) :
    (dats m 0 c).flushed 2 t = ((cfg0.win 2).blk t).view.read (Elt Ideal) (fused (V m c main_v5) (V m c main_v7)) := by
  show (cfg0.win 2).cut (grid0.coords t) ((dats m 0 c).after 2 t) = _
  rw [after0_2]
  unfold outsAt0
  rw [Block.piece, keys_block, values_block]
  obtain ⟨-, -, -, -, e4, e5, e6⟩ := idx_facts t
  funext y
  show k0_pay1 (V m c main_v5) (Block.queryRows (grid0.coords t) (V m c main_v5)) (V m c main_v7) y
    = fused (V m c main_v5) (V m c main_v7) (((cfg0.win 2).blk t).view.emb y)
  refine block_entry _ _ (grid0.coords t) y _ ?_ ?_
  · show win0_2.index t (0 : Fin 2) * 256 + 1 * (y 0).val = 256 * (grid0.coords t 0).val + (y 0).val
    rw [e4, e6]; omega
  · show win0_2.index t (1 : Fin 2) * 128 + 1 * (y 1).val = (y 1).val
    rw [e5]; omega

/-- An index of the output is in point `t`'s block iff each coordinate is in the block's range on its axis. -/
theorem mem_blk (t : Fin cfg0.N) (i : S8192x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v8).slice (win0_2.rect t)).set ↔ _
  rw [View.set_slice_whole, Rect.mem_set_unit]
  exact Iff.rfl

/-- THE OUTPUT ARRAY after the grid: every row `r` is in the block of point `r / 256`. -/
theorem final (c : Dev nD) : (dats m 0 c).arrAt 2 cfg0.N = fused (V m c main_v5) (V m c main_v7) :=
  (dats m 0 c).arrAt_eq_of_cover 2 _ (fun t _ => flushed_eq m c t) fun i => by
    have hi0 : (i 0).val < 8192 := (i 0).isLt
    have hi1 : (i 1).val < 128 := (i 1).isLt
    have hN : cfg0.N = 32 := N_0
    have hlt : (i 0).val / 256 < cfg0.N := by rw [hN]; omega
    refine ⟨⟨(i 0).val / 256, hlt⟩, flush0_2 _, ?_⟩
    rw [mem_blk]
    obtain ⟨-, -, -, -, e4, e5, -⟩ := idx_facts ⟨(i 0).val / 256, hlt⟩
    intro a
    match a with
    | ⟨0, _⟩ =>
      show win0_2.index ⟨(i 0).val / 256, hlt⟩ (0 : Fin 2) * 256 ≤ (i 0).val ∧ (i 0).val < win0_2.index ⟨(i 0).val / 256, hlt⟩ (0 : Fin 2) * 256 + 256
      rw [e4]; dsimp only; omega
    | ⟨1, _⟩ =>
      show win0_2.index ⟨(i 0).val / 256, hlt⟩ (1 : Fin 2) * 128 ≤ (i 1).val ∧ (i 1).val < win0_2.index ⟨(i 0).val / 256, hlt⟩ (1 : Fin 2) * 128 + 128
      rw [e5]; omega

/-- The key table: the products of magnitude with the cosine and with the sine of the phase, side by side. -/
def keyTable (a0 a1 : FVec Ideal S8192x64 .f32) : FVec Ideal S8192x128 .bf16 :=
  truncf .bf16 (concatenate S8192x128 1 [⟨S8192x64, mulf a0 (Host.cos (F := Ideal) a1)⟩, ⟨S8192x64, mulf a0 (Host.sin (F := Ideal) a1)⟩]
    concatenates_S8192x64_S8192x64_S8192x128_d1) bitsLt_bf16_f32

/-- The value table: magnitude and phase side by side. -/
def valueTable (a0 a1 : FVec Ideal S8192x64 .f32) : FVec Ideal S8192x128 .bf16 :=
  truncf .bf16 (concatenate S8192x128 1 [⟨S8192x64, a0⟩, ⟨S8192x64, a1⟩] concatenates_S8192x64_S8192x64_S8192x128_d1) bitsLt_bf16_f32

/-- The operations before the grid leave the key table in the first staged array. -/
theorem keys_eq (c : Dev nD) : (V m c main_v5 : Vec Ideal S8192x128 .bf16)
    = keyTable (m ((c : Thread nD τ).loc main_arg0)) (m ((c : Thread nD τ).loc main_arg1)) := by
  show StableHlo.after hostOps0 (fun b => m (c, b)) (Proc.devRef .tc main_v5) = _
  after_results
  rfl

/-- … and the value table in the second. -/
theorem values_eq (c : Dev nD) : (V m c main_v7 : Vec Ideal S8192x128 .bf16)
    = valueTable (m ((c : Thread nD τ).loc main_arg0)) (m ((c : Thread nD τ).loc main_arg1)) := by
  show StableHlo.after hostOps0 (fun b => m (c, b)) (Proc.devRef .tc main_v7) = _
  after_results
  rfl

/-- The first result: columns 0–63 of the finished output. -/
theorem tail_mag (c : Dev nD) : Pipeline.afterTail₀ cfgs (dats m) 0 (V0 m) [hostOps1] c main_v9
    = extractStridedSlice S8192x64 ![0, 0] (fused (V m c main_v5) (V m c main_v7)) slices_S8192x128_S8192x64_0_0 := by
  unfold Pipeline.afterTail₀
  show StableHlo.after hostOps1 _ (Proc.devRef .tc main_v9) = _
  after_results
  refine congrArg (fun x : FVec Ideal S8192x128 .f32 => extractStridedSlice S8192x64 (![0, 0] : Fin 2 → Nat) x slices_S8192x128_S8192x64_0_0) ?_
  exact (Pipeline.withArrays_arr spec0 launch0.win.arr_inj c _ _ 2).trans (final m c)

/-- The second result: columns 64–127 of the finished output. -/
theorem tail_phase (c : Dev nD) : Pipeline.afterTail₀ cfgs (dats m) 0 (V0 m) [hostOps1] c main_v10
    = extractStridedSlice S8192x64 ![0, 64] (fused (V m c main_v5) (V m c main_v7)) slices_S8192x128_S8192x64_0_64 := by
  unfold Pipeline.afterTail₀
  show StableHlo.after hostOps1 _ (Proc.devRef .tc main_v10) = _
  after_results
  refine congrArg (fun x : FVec Ideal S8192x128 .f32 => extractStridedSlice S8192x64 (![0, 64] : Fin 2 → Nat) x slices_S8192x128_S8192x64_0_64) ?_
  exact (Pipeline.withArrays_arr spec0 launch0.win.arr_inj c _ _ 2).trans (final m c)

/-- The first result as a function of the two argument arrays. -/
def magOut (a0 a1 : FVec Ideal S8192x64 .f32) : FVec Ideal S8192x64 .f32 :=
  extractStridedSlice S8192x64 (![0, 0] : Fin 2 → Nat) (fused (keyTable a0 a1) (valueTable a0 a1)) slices_S8192x128_S8192x64_0_0

/-- The second result as a function of the two argument arrays. -/
def phaseOut (a0 a1 : FVec Ideal S8192x64 .f32) : FVec Ideal S8192x64 .f32 :=
  extractStridedSlice S8192x64 (![0, 64] : Fin 2 → Nat) (fused (keyTable a0 a1) (valueTable a0 a1)) slices_S8192x128_S8192x64_0_64

theorem out_mag (c : Dev nD) : Pipeline.afterTail₀ cfgs (dats m) 0 (V0 m) [hostOps1] c main_v9
    = magOut (m ((c : Thread nD τ).loc main_arg0)) (m ((c : Thread nD τ).loc main_arg1)) := by
  rw [tail_mag, keys_eq, values_eq]
  rfl

theorem out_phase (c : Dev nD) : Pipeline.afterTail₀ cfgs (dats m) 0 (V0 m) [hostOps1] c main_v10
    = phaseOut (m ((c : Thread nD τ).loc main_arg0)) (m ((c : Thread nD τ).loc main_arg1)) := by
  rw [tail_phase, keys_eq, values_eq]
  rfl

/-- THE RUN, READ: every weakly fair execution terminates with the two results at these functions of the argument
    arrays and the arguments unchanged. -/
theorem run : θ_run defs (onTc (τ := τ) (main (F := Ideal))) ⟨m, fun _ => 0, ρ⟩ fun r => ∀ c : Dev nD,
      r.2.mem ((c : Thread nD τ).loc main_v9) = magOut (m ((c : Thread nD τ).loc main_arg0)) (m ((c : Thread nD τ).loc main_arg1))
      ∧ r.2.mem ((c : Thread nD τ).loc main_v10) = phaseOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v9 (Pipeline.mem_restRefs_of main_v9 (by decide) (by decide))).trans (out_mag m c),
      ((h c).2 main_v10 (Pipeline.mem_restRefs_of main_v10 (by decide) (by decide))).trans (out_phase m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.RefValue.lean ====
/-
  The reference's two results, read on the extended reals.

  With `a = mag · cos phase` and `b = mag · sin phase`, the reference's score of row `r` against key `j` is
  `∑_d a[r, d] · a[j, d] + ∑_d b[r, d] · b[j, d]`; its softmax takes the row's largest score (a reduction from −∞,
  then one more maximum with −∞, which changes nothing), exponentiates the distances below it, and divides by the row's
  sum (which starts from zero); its two results are the weighted sums of the columns of the magnitudes and of the
  phases. So entry (r, d) of each result is `Attn.attend` of row `r`'s scores and column `d` of that argument.
  Every stage but the largest-score reduction is read at an index by the lemma generated for it; that reduction is a
  fold of `max` over the row, in any order.
-/
import proofs.«118776_j81930796139010_2_alg».proof.Proof.Gen.ReferenceIdeal.Read
import proofs.«118776_j81930796139010_2_alg».proof.Proof.Attend
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-- An index of a matrix with the given coordinates is `ix2` of them. -/
theorem eq_ix2_of {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- The score of row `r` against key `j`, from the two product tables. -/
def score (a b : FVec Ideal S8192x64 .f32) (r j : Fin 8192) : EReal :=
  (∑ d : Fin 64, a (ix2 r d) * a (ix2 j d)) + ∑ d : Fin 64, b (ix2 r d) * b (ix2 j d)

variable (x0 x1 : (⟨S8192x64, .f32⟩ : BufTy).Contents (Elt Ideal))

/-- Row `r` of the reference's scores. -/
abbrev scoreRow (r : Fin 8192) : Fin 8192 → EReal :=
  fun j => score (val_main_v1 (F := Ideal) x0 x1) (val_main_v3 (F := Ideal) x0 x1) r j

/-- The score matrix at (r, j). -/
theorem scores_apply (r j : Fin 8192) : val_main_v8 (F := Ideal) x0 x1 (ix2 r j) = scoreRow x0 x1 r j := by
  rw [val_main_v8_apply, val_main_v5_apply, val_main_v7_apply]
  show (∑ k : Fin 64, _) + (∑ k : Fin 64, _) = _
  unfold scoreRow score
  refine congrArg₂ (· + ·) (Finset.sum_congr rfl fun k _ => ?_) (Finset.sum_congr rfl fun k _ => ?_)
  · rw [val_main_v4_apply]
    exact congrArg₂ (· * ·) (congrArg _ (eq_ix2_of _ r k rfl rfl)) (congrArg _ (eq_ix2_of _ j k rfl rfl))
  · rw [val_main_v6_apply]
    exact congrArg₂ (· * ·) (congrArg _ (eq_ix2_of _ r k rfl rfl)) (congrArg _ (eq_ix2_of _ j k rfl rfl))

/-- Row `r`'s largest score. -/
theorem rowMax_apply (r : Fin 8192) :
    val_main_v11 (F := Ideal) x0 x1 (ix1 r) = Attn.rowMax (scoreRow x0 x1 r) := by
  rw [val_main_v11_apply, val_main_v10_apply]
  show max (Ideal.ofBits .f32 0xFF800000#32) (val_main_v9 (F := Ideal) x0 x1 (ix1 r)) = _
  rw [Attn.max_negInf]
  unfold val_main_v9
  have hR : S8192x8192.Reduces [1] S8192 := by decide
  refine (Host.reduce_eq_fold_single (FloatOps.maximumf (F := Ideal) (φ := .f32)) (val_main_v8 (F := Ideal) x0 x1) (val_main_cst (F := Ideal))
    reducesTo_S8192x8192_S8192_d1 hR h_S_ (ix1 r)).trans ?_
  unfold Attn.rowMax
  refine congrArg (fun f => Finset.fold max (Ideal.ofBits .f32 0xFF800000#32) f (Finset.univ : Finset (Fin 8192))) ?_
  funext k
  refine Eq.trans ?_ (scores_apply x0 x1 r k)
  exact congrArg (val_main_v8 (F := Ideal) x0 x1) (funext fun a => Fin.ext (by match a with | ⟨0, _⟩ => rfl | ⟨1, _⟩ => rfl))

/-- The exponential stage at (r, j). -/
theorem expo_apply (r j : Fin 8192) :
    val_main_v15 (F := Ideal) x0 x1 (ix2 r j) = Attn.unnorm (scoreRow x0 x1 r) j := by
  rw [val_main_v15_apply, val_main_v14_apply, val_main_v13_apply, val_main_v12_apply,
    show idx_main_v12 (idx_main_v13 (ix2 r j)) = ix1 r from funext fun a => Fin.ext (by match a with | ⟨0, _⟩ => rfl),
    rowMax_apply, scores_apply]
  rfl

/-- Row `r`'s sum of exponentials. -/
theorem rowSum_apply (r : Fin 8192) :
    val_main_v16 (F := Ideal) x0 x1 (ix1 r) = ∑ j : Fin 8192, Attn.unnorm (scoreRow x0 x1 r) j := by
  rw [val_main_v16_apply]
  show Ideal.ofBits .f32 0x00000000#32 + _ = _
  rw [Ideal.ofBits_zero_f32, zero_add]
  refine Finset.sum_congr rfl fun k _ => ?_
  refine Eq.trans ?_ (expo_apply x0 x1 r k)
  exact congrArg (val_main_v15 (F := Ideal) x0 x1) (eq_ix2_of _ r k rfl rfl)

/-- The softmax weight at (r, j). -/
theorem weight_apply (r j : Fin 8192) :
    val_main_v19 (F := Ideal) x0 x1 (ix2 r j) = Attn.weight (scoreRow x0 x1 r) j := by
  rw [val_main_v19_apply, val_main_v18_apply, val_main_v17_apply,
    show idx_main_v17 (idx_main_v18 (ix2 r j)) = ix1 r from funext fun a => Fin.ext (by match a with | ⟨0, _⟩ => rfl),
    rowSum_apply, expo_apply]
  rfl

/-- THE FIRST RESULT at (r, d): attention of row `r`'s scores over column `d` of the magnitudes. -/
theorem mag_apply (r : Fin 8192) (d : Fin 64) :
    val_main_v20 (F := Ideal) x0 x1 (ix2 r d) = Attn.attend (scoreRow x0 x1 r) (fun j => x0 (ix2 j d)) := by
  rw [val_main_v20_apply]
  unfold Attn.attend
  refine Finset.sum_congr rfl fun k _ => ?_
  rw [show lidx_main_v20 (ix2 r d) k = ix2 r k from eq_ix2_of _ r k rfl rfl,
    show ridx_main_v20 (ix2 r d) k = ix2 k d from eq_ix2_of _ k d rfl rfl, weight_apply]

/-- THE SECOND RESULT at (r, d): the same weights over column `d` of the phases. -/
theorem phase_apply (r : Fin 8192) (d : Fin 64) :
    val_main_v21 (F := Ideal) x0 x1 (ix2 r d) = Attn.attend (scoreRow x0 x1 r) (fun j => x1 (ix2 j d)) := by
  rw [val_main_v21_apply]
  unfold Attn.attend
  refine Finset.sum_congr rfl fun k _ => ?_
  rw [show lidx_main_v21 (ix2 r d) k = ix2 r k from eq_ix2_of _ r k rfl rfl,
    show ridx_main_v21 (ix2 r d) k = ix2 k d from eq_ix2_of _ k d rfl rfl, weight_apply]

end Cert.ReferenceIdeal.RefValue

end
-- ==== Proof.Bridge.lean ====
/-
  The two programs compute the same function.

  Column `c` of the key table is `a[·, c] = mag · cos phase` for `c < 64` and `b[·, c − 64] = mag · sin phase` otherwise,
  so the kernel program's score `∑_{c < 128} key[r, c] · key[j, c]` splits into `∑_{d < 64} a[r, d] · a[j, d] +
  ∑_{d < 64} b[r, d] · b[j, d]`, the reference's (a sum over 128 columns is the sum over each half: addition on the
  extended reals is commutative and associative, infinities included). Column `d` of the value table is column `d` of
  `mag`, column `64 + d` is column `d` of `phase`. Equal score rows and equal value columns give equal attention.
-/
import proofs.«118776_j81930796139010_2_alg».proof.Proof.KernelArray
import proofs.«118776_j81930796139010_2_alg».proof.Proof.RefValue
import Idealize.ShloMosaic.Lib.ValueLayout

set_option maxRecDepth 16384

noncomputable section

open Idealize.ShloMosaic Idealize.ShloMosaic.ValueIdx

namespace Cert.Bridge

open Cert.KernelIdeal (S8192x64 S8192x128)
open Cert.KernelIdeal.Value (keyTable valueTable fused fusedAt magOut phaseOut)
open Cert.ReferenceIdeal.Read (val_main_v1 val_main_v3 val_main_v20 val_main_v21)
open Cert.ReferenceIdeal.RefValue (scoreRow score mag_apply phase_apply)

variable (a0 a1 : FVec Ideal S8192x64 .f32)

/-- A column of the first half of a side-by-side pair is the first piece's column. -/
theorem pair_left (x y : FVec Ideal S8192x64 .f32) (r : Fin 8192) (d : Fin 64) (c : Fin 128) (hc : c.val = d.val) :
    (concatenate S8192x128 1 [⟨S8192x64, x⟩, ⟨S8192x64, y⟩] Cert.KernelIdeal.Facts₀.concatenates_S8192x64_S8192x64_S8192x128_d1
      : FVec Ideal S8192x128 .f32) (ix2 r c) = x (ix2 r d) :=
  concatenate_pair_apply_left (1 : Fin 2) x y _ (ix2 r c) rfl (ix2 r d) (fun b => by
    match b with
    | ⟨0, _⟩ => rfl
    | ⟨1, _⟩ => exact hc.symm)

/-- A column of the second half is the second piece's column, 64 less. -/
theorem pair_right (x y : FVec Ideal S8192x64 .f32) (r : Fin 8192) (d : Fin 64) (c : Fin 128) (hc : c.val = 64 + d.val) :
    (concatenate S8192x128 1 [⟨S8192x64, x⟩, ⟨S8192x64, y⟩] Cert.KernelIdeal.Facts₀.concatenates_S8192x64_S8192x64_S8192x128_d1
      : FVec Ideal S8192x128 .f32) (ix2 r c) = y (ix2 r d) :=
  concatenate_pair_apply_right (1 : Fin 2) x y _ (ix2 r c) rfl rfl (ix2 r d) (fun b => by
    match b with
    | ⟨0, _⟩ => exact fun _ => rfl
    | ⟨1, _⟩ => exact fun h => absurd rfl h) (by show d.val + 64 = c.val; omega)

theorem keyTable_left (r : Fin 8192) (d : Fin 64) (c : Fin 128) (hc : c.val = d.val) :
    keyTable a0 a1 (ix2 r c) = val_main_v1 (F := Ideal) a0 a1 (ix2 r d) :=
  pair_left _ _ r d c hc

theorem keyTable_right (r : Fin 8192) (d : Fin 64) (c : Fin 128) (hc : c.val = 64 + d.val) :
    keyTable a0 a1 (ix2 r c) = val_main_v3 (F := Ideal) a0 a1 (ix2 r d) :=
  pair_right _ _ r d c hc

theorem valueTable_left (r : Fin 8192) (d : Fin 64) (c : Fin 128) (hc : c.val = d.val) :
    valueTable a0 a1 (ix2 r c) = a0 (ix2 r d) :=
  pair_left _ _ r d c hc

theorem valueTable_right (r : Fin 8192) (d : Fin 64) (c : Fin 128) (hc : c.val = 64 + d.val) :
    valueTable a0 a1 (ix2 r c) = a1 (ix2 r d) :=
  pair_right _ _ r d c hc

/-- The kernel program's score of row `r` against key `j` is the reference's. -/
theorem scores_eq (r j : Fin 8192) :
    (∑ c : Fin 128, keyTable a0 a1 (ix2 r c) * keyTable a0 a1 (ix2 j c)) = scoreRow a0 a1 r j := by
  rw [Attn.sum_halves]
  show _ = score _ _ r j
  unfold score
  refine congrArg₂ (· + ·) (Finset.sum_congr rfl fun d _ => ?_) (Finset.sum_congr rfl fun d _ => ?_)
  · exact congrArg₂ (· * ·) (keyTable_left a0 a1 r d _ rfl) (keyTable_left a0 a1 j d _ rfl)
  · exact congrArg₂ (· * ·) (keyTable_right a0 a1 r d _ rfl) (keyTable_right a0 a1 j d _ rfl)

/-- THE FIRST RESULTS AGREE. -/
theorem mag_eq : magOut a0 a1 = val_main_v20 (F := Ideal) a0 a1 := by
  funext i
  obtain ⟨r, d, rfl⟩ : ∃ (r : Fin 8192) (d : Fin 64), i = ix2 r d := ⟨i 0, i 1, eq_ix2 i⟩
  rw [mag_apply]
  unfold magOut
  refine (slice2_axis1_apply 0 _ _ r d ⟨d.val, by have := d.isLt; omega⟩ (by simp)).trans ?_
  show fusedAt (keyTable a0 a1) (valueTable a0 a1) r ⟨d.val, _⟩ = _
  unfold fusedAt
  exact congrArg₂ Attn.attend (funext fun j => scores_eq a0 a1 r j) (funext fun j => valueTable_left a0 a1 j d _ rfl)

/-- THE SECOND RESULTS AGREE. -/
theorem phase_eq : phaseOut a0 a1 = val_main_v21 (F := Ideal) a0 a1 := by
  funext i
  obtain ⟨r, d, rfl⟩ : ∃ (r : Fin 8192) (d : Fin 64), i = ix2 r d := ⟨i 0, i 1, eq_ix2 i⟩
  rw [phase_apply]
  unfold phaseOut
  refine (slice2_axis1_apply 64 _ _ r d ⟨64 + d.val, by have := d.isLt; omega⟩ rfl).trans ?_
  show fusedAt (keyTable a0 a1) (valueTable a0 a1) r ⟨64 + d.val, _⟩ = _
  unfold fusedAt
  exact congrArg₂ Attn.attend (funext fun j => scores_eq a0 a1 r j) (funext fun j => valueTable_right a0 a1 j d _ rfl)

end Cert.Bridge

end
-- ==== Proof.lean ====
/-
  Complex polar attention: the kernel program against its plain reference, on the extended reals.

  From `mag` and `phase` (8192 × 64) both programs form `a = mag · cos phase`, `b = mag · sin phase`, the scores
  `a aᵀ + b bᵀ`, their row softmax, and the products of the softmax with `mag` and with `phase`. The kernel program
  fuses the two score products into one over `a` and `b` side by side, fuses the two output products into one over
  `mag` and `phase` side by side, computes 256 query rows per grid point, and splits the columns afterwards. Over the
  extended reals the two are the same function of the arguments, index by index (Bridge.lean): a sum over 128 columns
  is the sum over each half, −∞ is neutral for the maximum, and every other operation is applied to equal operands.
  No finiteness of the inputs is used.

  The frames of the two kernel programs are the generated ones; the reference's frame is its run with the results
  dropped; the idealization rewrote nothing, so `preserves` is `True`.
-/
import proofs.«118776_j81930796139010_2_alg».proof.Defs
import proofs.«118776_j81930796139010_2_alg».proof.Proof.Gen.Kernel
import proofs.«118776_j81930796139010_2_alg».proof.Proof.Gen.Kernel.Skeleton
import proofs.«118776_j81930796139010_2_alg».proof.Proof.Gen.Kernel.Launch
import proofs.«118776_j81930796139010_2_alg».proof.Proof.Gen.Kernel.Points
import proofs.«118776_j81930796139010_2_alg».proof.Proof.Gen.Kernel.Frame
import proofs.«118776_j81930796139010_2_alg».proof.Proof.Gen.KernelIdeal
import proofs.«118776_j81930796139010_2_alg».proof.Proof.Gen.KernelIdeal.Skeleton
import proofs.«118776_j81930796139010_2_alg».proof.Proof.Gen.KernelIdeal.Launch
import proofs.«118776_j81930796139010_2_alg».proof.Proof.Gen.KernelIdeal.Points
import proofs.«118776_j81930796139010_2_alg».proof.Proof.Gen.KernelIdeal.Frame
import proofs.«118776_j81930796139010_2_alg».proof.Proof.Gen.ReferenceIdeal
import proofs.«118776_j81930796139010_2_alg».proof.Proof.Gen.Pre_finite_inputs
import proofs.«118776_j81930796139010_2_alg».proof.Proof.Gen.ReferenceIdeal.Run
import proofs.«118776_j81930796139010_2_alg».proof.Proof.Gen.ReferenceIdeal.Read
import proofs.«118776_j81930796139010_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the arguments, both programs end with the same two results: the kernel program's are
    the two column halves of the attention over the side-by-side tables, the reference's the attention over `mag` and
    over `phase`, and these are one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.magOut
      (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => Cert.KernelIdeal.Value.phaseOut
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v20_eq (F := Ideal) _ _)).trans ?_
    rw [(hagree c).1, (hagree c).2]
    exact (Cert.Bridge.mag_eq _ _).symm
  · refine ((h c).2.1.trans (Cert.ReferenceIdeal.Read.val_main_v21_eq (F := Ideal) _ _)).trans ?_
    rw [(hagree c).1, (hagree c).2]
    exact (Cert.Bridge.phase_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
